-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x32 : Shape := ⟨3, ![64, 8192, 32]⟩
abbrev S32x32 : Shape := ⟨2, ![32, 32]⟩
abbrev S64x64x32 : Shape := ⟨3, ![64, 64, 32]⟩
abbrev S64x64 : Shape := ⟨2, ![64, 64]⟩
abbrev S64x32x64 : Shape := ⟨3, ![64, 32, 64]⟩
abbrev S64x32 : Shape := ⟨2, ![64, 32]⟩
abbrev S_ : Shape := ⟨0, ![]⟩

class Facts : Prop where
  bcast_S_S64x8192x32 : S_.BroadcastsInDim S64x8192x32 (![] : Fin 0 → Fin S64x8192x32.rank)
  reducesTo_S64x8192x32_S_d0_1_2 : S64x8192x32.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_
  bcast_S_S64x64x32 : S_.BroadcastsInDim S64x64x32 (![] : Fin 0 → Fin S64x64x32.rank)
  reducesTo_S64x64x32_S_d0_1_2 : S64x64x32.ReducesTo [0, 1, 2] S_
  bcast_S_S64x64 : S_.BroadcastsInDim S64x64 (![] : Fin 0 → Fin S64x64.rank)
  reducesTo_S64x64_S_d0_1 : S64x64.ReducesTo [0, 1] S_
  bcast_S_S64x32x64 : S_.BroadcastsInDim S64x32x64 (![] : Fin 0 → Fin S64x32x64.rank)
  reducesTo_S64x32x64_S_d0_1_2 : S64x32x64.ReducesTo [0, 1, 2] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_arg4 : FVec F S64x32x64 .f32) (main_arg5 : FVec F S64x32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x32x64 .f32 := Host.absf main_arg4
  let main_cst_6 : FVec F S_ .f32 := constant S_ .f32 0x7F800000#32
  let main_v20 : FVec F S64x32x64 .f32 := broadcastInDim S64x32x64 ![] bcast_S_S64x32x64 main_cst_6
  let main_v21 : IVec S64x32x64 1 := cmpf .olt main_v19 main_v20
  let main_c_7 : IVec S_ 1 := constantI S_ 1 1#1
  let main_v22 : IVec S_ 1 := (fun x v => Host.reduce IntOp.andi x v reducesTo_S64x32x64_S_d0_1_2 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  main_v28

def fn {F : FTy → Type} [FloatOps F] (main_arg0 : FVec F S64x8192x32 .f32) (main_arg1 : FVec F S32x32 .f32) (main_arg2 : FVec F S64x64x32 .f32) (main_arg3 : FVec F S64x64 .f32) (main_arg4 : FVec F S64x32x64 .f32) (main_arg5 : FVec F S64x32 .f32) : IVec S_ 1 :=
  let main_v0 : FVec F S64x8192x32 .f32 := Host.absf main_arg0
  let main_cst : FVec F S_ .f32 := constant S_ .f32 0x7F800000#32
  let main_v1 : FVec F S64x8192x32 .f32 := broadcastInDim S64x8192x32 ![] bcast_S_S64x8192x32 main_cst
  let main_v2 : IVec S64x8192x32 1 := cmpf .olt main_v0 main_v1
  let main_c : IVec S_ 1 := constantI S_ 1 1#1
  let main_v3 : IVec S_ 1 := (fun x v => Host.reduce IntOp.andi x v reducesTo_S64x8192x32_S_d0_1_2 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S64x64x32 .f32 := Host.absf main_arg2
  let main_cst_2 : FVec F S_ .f32 := constant S_ .f32 0x7F800000#32
  let main_v10 : FVec F S64x64x32 .f32 := broadcastInDim S64x64x32 ![] bcast_S_S64x64x32 main_cst_2
  let main_v11 : IVec S64x64x32 1 := cmpf .olt main_v9 main_v10
  let main_c_3 : IVec S_ 1 := constantI S_ 1 1#1
  let main_v12 : IVec S_ 1 := (fun x v => Host.reduce IntOp.andi x v reducesTo_S64x64x32_S_d0_1_2 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S64x8192x32 : Shape := ⟨3, ![64, 8192, 32]⟩
abbrev S32x32 : Shape := ⟨2, ![32, 32]⟩
abbrev S64x64x32 : Shape := ⟨3, ![64, 64, 32]⟩
abbrev S64x64 : Shape := ⟨2, ![64, 64]⟩
abbrev S64x32x64 : Shape := ⟨3, ![64, 32, 64]⟩
abbrev S64x32 : Shape := ⟨2, ![64, 32]⟩
abbrev S64x1x64 : Shape := ⟨3, ![64, 1, 64]⟩
abbrev S64x1x32 : Shape := ⟨3, ![64, 1, 32]⟩
abbrev S1x8192x32 : Shape := ⟨3, ![1, 8192, 32]⟩
abbrev S1x64x32 : Shape := ⟨3, ![1, 64, 32]⟩
abbrev S1x1x64 : Shape := ⟨3, ![1, 1, 64]⟩
abbrev S1x32x64 : Shape := ⟨3, ![1, 32, 64]⟩
abbrev S1x1x32 : Shape := ⟨3, ![1, 1, 32]⟩
abbrev S8192x32 : Shape := ⟨2, ![8192, 32]⟩
abbrev S32 : Shape := ⟨1, ![32]⟩
abbrev S1x32 : Shape := ⟨2, ![1, 32]⟩
abbrev S8192x64 : Shape := ⟨2, ![8192, 64]⟩
abbrev S1x64 : Shape := ⟨2, ![1, 64]⟩
abbrev S32x64 : Shape := ⟨2, ![32, 64]⟩

abbrev nBuf : Space → Nat
  | .hbm => 9
  | .vmem => 13
  | .smem => 0
  | _ => 0

abbrev bufTy : (tb : Table) → Fin (tcTables nBuf tb) → BufTy
  | .hbm, ⟨0, _⟩ => ⟨S64x8192x32, .f32⟩
  | .hbm, ⟨1, _⟩ => ⟨S32x32, .f32⟩
  | .hbm, ⟨2, _⟩ => ⟨S64x64x32, .f32⟩
  | .hbm, ⟨3, _⟩ => ⟨S64x64, .f32⟩
  | .hbm, ⟨4, _⟩ => ⟨S64x32x64, .f32⟩
  | .hbm, ⟨5, _⟩ => ⟨S64x32, .f32⟩
  | .hbm, ⟨6, _⟩ => ⟨S64x1x64, .f32⟩
  | .hbm, ⟨7, _⟩ => ⟨S64x1x32, .f32⟩
  | .hbm, ⟨8, _⟩ => ⟨S64x8192x32, .f32⟩
  | .local _ .vmem, ⟨0, _⟩ => ⟨S1x8192x32, .f32⟩
  | .local _ .vmem, ⟨1, _⟩ => ⟨S1x8192x32, .f32⟩
  | .local _ .vmem, ⟨2, _⟩ => ⟨S32x32, .f32⟩
  | .local _ .vmem, ⟨3, _⟩ => ⟨S1x64x32, .f32⟩
  | .local _ .vmem, ⟨4, _⟩ => ⟨S1x64x32, .f32⟩
  | .local _ .vmem, ⟨5, _⟩ => ⟨S1x1x64, .f32⟩
  | .local _ .vmem, ⟨6, _⟩ => ⟨S1x1x64, .f32⟩
  | .local _ .vmem, ⟨7, _⟩ => ⟨S1x32x64, .f32⟩
  | .local _ .vmem, ⟨8, _⟩ => ⟨S1x32x64, .f32⟩
  | .local _ .vmem, ⟨9, _⟩ => ⟨S1x1x32, .f32⟩
  | .local _ .vmem, ⟨10, _⟩ => ⟨S1x1x32, .f32⟩
  | .local _ .vmem, ⟨11, _⟩ => ⟨S1x8192x32, .f32⟩
  | .local _ .vmem, ⟨12, _⟩ => ⟨S1x8192x32, .f32⟩
  | _, _ => ⟨S64x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8192x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x64_S64x1x64 : S64x64.ShapeCasts S64x1x64
  shapeCasts_S64x32_S64x1x32 : S64x32.ShapeCasts S64x1x32
  inb_S1x8192x32_S1x8192x32_0_0_0 : ∀ a, (![0, 0, 0] : Fin 3 → Nat) a + S1x8192x32.size a ≤ S1x8192x32.size a
  h_S1x8192x32 : 0 < S1x8192x32.numel
  shapeCasts_S1x8192x32_S8192x32 : S1x8192x32.ShapeCasts S8192x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  reduces_S8192x32_S32 : S8192x32.Reduces [0] S32
  shapeCasts_S32_S1x32 : S32.ShapeCasts S1x32
  broadcasts_S1x32_S8192x32 : S1x32.Broadcasts S8192x32
  inb_S1x64x32_S1x64x32_0_0_0 : ∀ a, (![0, 0, 0] : Fin 3 → Nat) a + S1x64x32.size a ≤ S1x64x32.size a
  h_S1x64x32 : 0 < S1x64x32.numel
  shapeCasts_S1x64x32_S64x32 : S1x64x32.ShapeCasts S64x32
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S8192x64 : S1x64.Broadcasts S8192x64
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S8192x32_S1x8192x32 : S8192x32.ShapeCasts S1x8192x32
  dot_S8192x32_S32x32_S8192x32_1_1_0_0_n_n_wf : DotDims.WF S8192x32 S32x32 S8192x32 [1] [1] [0] [0] [] []
  dot_S8192x32_S64x32_S8192x64_1_1_0_0_n_n_wf : DotDims.WF S8192x32 S64x32 S8192x64 [1] [1] [0] [0] [] []
  dot_S8192x64_S32x64_S8192x32_1_1_0_0_n_n_wf : DotDims.WF S8192x64 S32x64 S8192x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x32.size a ≤ S64x8192x32.size a
  hwx0_0 : ∀ i : grid0.Coords, EltTy.bits .f32 = 32 ∨ (Rect.block (s := S64x8192x32) S1x8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32.size a ≤ S64x64x32.size a
  hwx0_2 : ∀ i : grid0.Coords, EltTy.bits .f32 = 32 ∨ (Rect.block (s := S64x64x32) S1x64x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S64x1x64.size a
  hwx0_3 : ∀ i : grid0.Coords, EltTy.bits .f32 = 32 ∨ (Rect.block (s := S64x1x64) S1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x64.size a ≤ S64x32x64.size a
  hwx0_4 : ∀ i : grid0.Coords, EltTy.bits .f32 = 32 ∨ (Rect.block (s := S64x32x64) S1x32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x32.size a ≤ S64x1x32.size a
  hwx0_5 : ∀ i : grid0.Coords, EltTy.bits .f32 = 32 ∨ (Rect.block (s := S64x1x32) S1x1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8192x32.size a ≤ S64x8192x32.size a
  hwx0_6 : ∀ i : grid0.Coords, EltTy.bits .f32 = 32 ∨ (Rect.block (s := S64x8192x32) S1x8192x32.size (cc0_transform_6 i) (hinb0_6 i)).WholeWords (EltTy.packing .f32)

variable [Facts₀]

def dot_S8192x32_S32x32_S8192x32_1_1_0_0_n_n : DotDims S8192x32 S32x32 S8192x32 where
  lhsContracting := [1]
  rhsContracting := [1]
  lhsNonContracting := [0]
  rhsNonContracting := [0]
  lhsBatch := []
  rhsBatch := []
  wf := dot_S8192x32_S32x32_S8192x32_1_1_0_0_n_n_wf
def dot_S8192x32_S64x32_S8192x64_1_1_0_0_n_n : DotDims S8192x32 S64x32 S8192x64 where
  lhsContracting := [1]
  rhsContracting := [1]
  lhsNonContracting := [0]
  rhsNonContracting := [0]
  lhsBatch := []
  rhsBatch := []
  wf := dot_S8192x32_S64x32_S8192x64_1_1_0_0_n_n_wf
def dot_S8192x64_S32x64_S8192x32_1_1_0_0_n_n : DotDims S8192x64 S32x64 S8192x32 where
  lhsContracting := [1]
  rhsContracting := [1]
  lhsNonContracting := [0]
  rhsNonContracting := [0]
  lhsBatch := []
  rhsBatch := []
  wf := dot_S8192x64_S32x64_S8192x32_1_1_0_0_n_n_wf

abbrev win0_0 : Pipeline.Window sig grid0 :=
  Pipeline.Window.ofSpec (Memref.whole main_arg0) S1x8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x32x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x8192x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x8192x32 : Shape := ⟨3, ![64, 8192, 32]⟩
abbrev S32x32 : Shape := ⟨2, ![32, 32]⟩
abbrev S64x64x32 : Shape := ⟨3, ![64, 64, 32]⟩
abbrev S64x64 : Shape := ⟨2, ![64, 64]⟩
abbrev S64x32x64 : Shape := ⟨3, ![64, 32, 64]⟩
abbrev S64x32 : Shape := ⟨2, ![64, 32]⟩
abbrev S_ : Shape := ⟨0, ![]⟩
abbrev S64x1x32 : Shape := ⟨3, ![64, 1, 32]⟩
abbrev S64x8192x64 : Shape := ⟨3, ![64, 8192, 64]⟩
abbrev S64x1x64 : Shape := ⟨3, ![64, 1, 64]⟩

abbrev nBuf : Space → Nat
  | .hbm => 43
  | .vmem => 0
  | .smem => 0
  | _ => 0

abbrev bufTy : (tb : Table) → Fin (tcTables nBuf tb) → BufTy
  | .hbm, ⟨0, _⟩ => ⟨S64x8192x32, .f32⟩
  | .hbm, ⟨1, _⟩ => ⟨S32x32, .f32⟩
  | .hbm, ⟨2, _⟩ => ⟨S64x64x32, .f32⟩
  | .hbm, ⟨3, _⟩ => ⟨S64x64, .f32⟩
  | .hbm, ⟨4, _⟩ => ⟨S64x32x64, .f32⟩
  | .hbm, ⟨5, _⟩ => ⟨S64x32, .f32⟩
  | .hbm, ⟨6, _⟩ => ⟨S64x8192x32, .f32⟩
  | .hbm, ⟨7, _⟩ => ⟨S64x8192x32, .f32⟩
  | .hbm, ⟨8, _⟩ => ⟨S64x8192x32, .f32⟩
  | .hbm, ⟨9, _⟩ => ⟨S_, .f32⟩
  | .hbm, ⟨10, _⟩ => ⟨S64x8192x32, .f32⟩
  | .hbm, ⟨11, _⟩ => ⟨S64x8192x32, .f32⟩
  | .hbm, ⟨12, _⟩ => ⟨S_, .f32⟩
  | .hbm, ⟨13, _⟩ => ⟨S64x8192x32, .f32⟩
  | .hbm, ⟨14, _⟩ => ⟨S64x8192x32, .f32⟩
  | .hbm, ⟨15, _⟩ => ⟨S64x8192x32, .f32⟩
  | .hbm, ⟨16, _⟩ => ⟨S64x8192x32, .f32⟩
  | .hbm, ⟨17, _⟩ => ⟨S_, .f32⟩
  | .hbm, ⟨18, _⟩ => ⟨S64x32, .f32⟩
  | .hbm, ⟨19, _⟩ => ⟨S64x1x32, .f32⟩
  | .hbm, ⟨20, _⟩ => ⟨S64x1x32, .f32⟩
  | .hbm, ⟨21, _⟩ => ⟨S_, .f32⟩
  | .hbm, ⟨22, _⟩ => ⟨S64x1x32, .f32⟩
  | .hbm, ⟨23, _⟩ => ⟨S64x1x32, .f32⟩
  | .hbm, ⟨24, _⟩ => ⟨S64x8192x32, .f32⟩
  | .hbm, ⟨25, _⟩ => ⟨S64x8192x32, .f32⟩
  | .hbm, ⟨26, _⟩ => ⟨S64x8192x64, .f32⟩
  | .hbm, ⟨27, _⟩ => ⟨S64x1x64, .f32⟩
  | .hbm, ⟨28, _⟩ => ⟨S64x8192x64, .f32⟩
  | .hbm, ⟨29, _⟩ => ⟨S64x8192x64, .f32⟩
  | .hbm, ⟨30, _⟩ => ⟨S64x8192x64, .f32⟩
  | .hbm, ⟨31, _⟩ => ⟨S64x8192x64, .f32⟩
  | .hbm, ⟨32, _⟩ => ⟨S_, .f32⟩
  | .hbm, ⟨33, _⟩ => ⟨S64x8192x64, .f32⟩
  | .hbm, ⟨34, _⟩ => ⟨S64x8192x64, .f32⟩
  | .hbm, ⟨35, _⟩ => ⟨S_, .f32⟩
  | .hbm, ⟨36, _⟩ => ⟨S64x8192x64, .f32⟩
  | .hbm, ⟨37, _⟩ => ⟨S64x8192x64, .f32⟩
  | .hbm, ⟨38, _⟩ => ⟨S64x8192x64, .f32⟩
  | .hbm, ⟨39, _⟩ => ⟨S64x8192x32, .f32⟩
  | .hbm, ⟨40, _⟩ => ⟨S64x1x32, .f32⟩
  | .hbm, ⟨41, _⟩ => ⟨S64x8192x32, .f32⟩
  | .hbm, ⟨42, _⟩ => ⟨S64x8192x32, .f32⟩
  | _, _ => ⟨S64x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S_S64x8192x32 : S_.BroadcastsInDim S64x8192x32 (![] : Fin 0 → Fin S64x8192x32.rank)
  reducesTo_S64x8192x32_S64x32_d1 : S64x8192x32.ReducesTo [1] S64x32
  h_S_ : 0 < S_.numel
  bcast_S64x32_S64x1x32_0_2 : S64x32.BroadcastsInDim S64x1x32 (![0, 2] : Fin 2 → Fin S64x1x32.rank)
  bcast_S_S64x1x32 : S_.BroadcastsInDim S64x1x32 (![] : Fin 0 → Fin S64x1x32.rank)
  bcast_S64x1x32_S64x8192x32_0_1_2 : S64x1x32.BroadcastsInDim S64x8192x32 (![0, 1, 2] : Fin 3 → Fin S64x8192x32.rank)
  bcast_S64x64_S64x1x64_0_2 : S64x64.BroadcastsInDim S64x1x64 (![0, 2] : Fin 2 → Fin S64x1x64.rank)
  bcast_S64x1x64_S64x8192x64_0_1_2 : S64x1x64.BroadcastsInDim S64x8192x64 (![0, 1, 2] : Fin 3 → Fin S64x8192x64.rank)
  bcast_S_S64x8192x64 : S_.BroadcastsInDim S64x8192x64 (![] : Fin 0 → Fin S64x8192x64.rank)
  dot_S64x8192x32_S32x32_S64x8192x32_2_1_01_0_n_n_wf : DotDims.WF S64x8192x32 S32x32 S64x8192x32 [2] [1] [0, 1] [0] [] []
  dot_S64x8192x32_S64x64x32_S64x8192x64_2_2_1_1_0_0_wf : DotDims.WF S64x8192x32 S64x64x32 S64x8192x64 [2] [2] [1] [1] [0] [0]
  dot_S64x8192x64_S64x32x64_S64x8192x32_2_2_1_1_0_0_wf : DotDims.WF S64x8192x64 S64x32x64 S64x8192x32 [2] [2] [1] [1] [0] [0]

variable [Facts₀]

def dot_S64x8192x32_S32x32_S64x8192x32_2_1_01_0_n_n : DotDims S64x8192x32 S32x32 S64x8192x32 where
  lhsContracting := [2]
  rhsContracting := [1]
  lhsNonContracting := [0, 1]
  rhsNonContracting := [0]
  lhsBatch := []
  rhsBatch := []
  wf := dot_S64x8192x32_S32x32_S64x8192x32_2_1_01_0_n_n_wf
def dot_S64x8192x32_S64x64x32_S64x8192x64_2_2_1_1_0_0 : DotDims S64x8192x32 S64x64x32 S64x8192x64 where
  lhsContracting := [2]
  rhsContracting := [2]
  lhsNonContracting := [1]
  rhsNonContracting := [1]
  lhsBatch := [0]
  rhsBatch := [0]
  wf := dot_S64x8192x32_S64x64x32_S64x8192x64_2_2_1_1_0_0_wf
def dot_S64x8192x64_S64x32x64_S64x8192x32_2_2_1_1_0_0 : DotDims S64x8192x64 S64x32x64 S64x8192x32 where
  lhsContracting := [2]
  rhsContracting := [2]
  lhsNonContracting := [1]
  rhsNonContracting := [1]
  lhsBatch := [0]
  rhsBatch := [0]
  wf := dot_S64x8192x64_S64x32x64_S64x8192x32_2_2_1_1_0_0_wf

class Facts : Prop extends Facts₀ where

variable [Facts]
-- ==== Proof.Stages.lean ====
/-
  The kernel body's arithmetic, stage by stage, as functions of the six blocks it loads at a grid
  point (one batch b): the rows X = x[b] (8192 × 32), the projection Qw (32 × 32), the two layers'
  weights W1[b] (64 × 32), W2[b] (32 × 64) and biases b1[b], b2[b].

      A  = X · Qwᵀ                         A(p,f)  = Σ_k X(p,k) · Qw(f,k)
      G  = A · σ(A)                        the activation, entry by entry
      N  = max(√(Σ_p G(p,f)²), ε)          one number per column f
      U  = G / N                           each column scaled
      H  = U · W1ᵀ + b1,  S = H · σ(H)
      O  = S · W2ᵀ + b2

  The payload the body stores is O (by unfolding), and each stage is read here at an entry (p,f)
  given by two literal coordinates: a product with a transposed matrix as the sum over the
  contracted coordinate, the column reduction as the sum over the 8192 rows. Changes of float
  format are the identity on the extended reals, and a product accumulated into zero is the sum.
-/
import proofs.«104471_j46437186404632_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Mlp

open Cert.KernelIdeal Cert.KernelIdeal.Gen Idealize.ShloMosaic Idealize.ShloMosaic.ValueIdx

variable (P0 : Vec Ideal S1x8192x32 .f32) (P1 : Vec Ideal S32x32 .f32) (P2 : Vec Ideal S1x64x32 .f32)
  (P3 : Vec Ideal S1x1x64 .f32) (P4 : Vec Ideal S1x32x64 .f32) (P5 : Vec Ideal S1x1x32 .f32)

/-! ## The stages -/

/-- A = X · Qwᵀ. -/
def proj : FVec Ideal S8192x32 .f32 :=
  matmul dot_S8192x32_S32x32_S8192x32_1_1_0_0_n_n none
    (truncf .bf16 (shapeCast S8192x32 P0 shapeCasts_S1x8192x32_S8192x32) bitsLt_bf16_f32)
    (truncf .bf16 P1 bitsLt_bf16_f32) (constant S8192x32 .f32 0x00000000#32)

/-- G = A · σ(A). -/
def gated : FVec Ideal S8192x32 .f32 := mulf (proj P0 P1) (logistic (proj P0 P1))

/-- N = max(√(Σ over the rows of G²), ε), one entry per column. -/
def colNorm : FVec Ideal S1x32 .f32 :=
  maximumf
    (sqrt (shapeCast S1x32
      (multiReduction .add [0] S32 (mulf (gated P0 P1) (gated P0 P1)) 0x00000000#32 reduces_S8192x32_S32 (.inl rfl) rfl)
      shapeCasts_S32_S1x32))
    (broadcast S1x32 (Scalar.ofBits .f32 0x2B8CBCCC#32))

/-- U = G / N, column by column. -/
def normed : FVec Ideal S8192x32 .f32 :=
  divf (gated P0 P1) (broadcastTo S8192x32 (colNorm P0 P1) broadcasts_S1x32_S8192x32)

/-- H = U · W1ᵀ + b1. -/
def hiddenPre : FVec Ideal S8192x64 .f32 :=
  addf
    (matmul dot_S8192x32_S64x32_S8192x64_1_1_0_0_n_n none (truncf .bf16 (normed P0 P1) bitsLt_bf16_f32)
      (truncf .bf16 (shapeCast S64x32 P2 shapeCasts_S1x64x32_S64x32) bitsLt_bf16_f32) (constant S8192x64 .f32 0x00000000#32))
    (broadcastTo S8192x64 (shapeCast S1x64 P3 shapeCasts_S1x1x64_S1x64) broadcasts_S1x64_S8192x64)

/-- S = H · σ(H). -/
def hidden : FVec Ideal S8192x64 .f32 := mulf (hiddenPre P0 P1 P2 P3) (logistic (hiddenPre P0 P1 P2 P3))

/-- O = S · W2ᵀ + b2. -/
def result : FVec Ideal S8192x32 .f32 :=
  addf
    (matmul dot_S8192x64_S32x64_S8192x32_1_1_0_0_n_n none (truncf .bf16 (hidden P0 P1 P2 P3) bitsLt_bf16_f32)
      (truncf .bf16 (shapeCast S32x64 P4 shapeCasts_S1x32x64_S32x64) bitsLt_bf16_f32) (constant S8192x32 .f32 0x00000000#32))
    (broadcastTo S8192x32 (shapeCast S1x32 P5 shapeCasts_S1x1x32_S1x32) broadcasts_S1x32_S8192x32)

/-- What the body stores is O of the blocks it loaded. -/
theorem pay_eq : k0_pay2 (F := Ideal) P0 P1 P2 P3 P4 P5 = result P0 P1 P2 P3 P4 P5 := rfl

/-! ## A = X · Qwᵀ at an entry -/

theorem projL0 (i : S8192x32.Idx) (q : dot_S8192x32_S32x32_S8192x32_1_1_0_0_n_n.contr.Idx) : (dot_S8192x32_S32x32_S8192x32_1_1_0_0_n_n.lhsIdx i q 0).val = (i 0).val := by
  unfold DotDims.lhsIdx
  rw [dif_neg (show ¬(0 : Fin S8192x32.rank) ∈ dot_S8192x32_S32x32_S8192x32_1_1_0_0_n_n.lhsBatch by decide), dif_pos (show (0 : Fin S8192x32.rank) ∈ dot_S8192x32_S32x32_S8192x32_1_1_0_0_n_n.lhsNonContracting by decide)]
  rfl
theorem projL1 (i : S8192x32.Idx) (q : dot_S8192x32_S32x32_S8192x32_1_1_0_0_n_n.contr.Idx) : (dot_S8192x32_S32x32_S8192x32_1_1_0_0_n_n.lhsIdx i q 1).val = (q ⟨0, by decide⟩).val :=
  dot_S8192x32_S32x32_S8192x32_1_1_0_0_n_n.lhsIdx_val_of_single rfl i q
theorem projR0 (i : S8192x32.Idx) (q : dot_S8192x32_S32x32_S8192x32_1_1_0_0_n_n.contr.Idx) : (dot_S8192x32_S32x32_S8192x32_1_1_0_0_n_n.rhsIdx i q 0).val = (i 1).val := by
  unfold DotDims.rhsIdx
  rw [dif_neg (show ¬(0 : Fin S32x32.rank) ∈ dot_S8192x32_S32x32_S8192x32_1_1_0_0_n_n.rhsBatch by decide), dif_pos (show (0 : Fin S32x32.rank) ∈ dot_S8192x32_S32x32_S8192x32_1_1_0_0_n_n.rhsNonContracting by decide)]
  rfl
theorem projR1 (i : S8192x32.Idx) (q : dot_S8192x32_S32x32_S8192x32_1_1_0_0_n_n.contr.Idx) : (dot_S8192x32_S32x32_S8192x32_1_1_0_0_n_n.rhsIdx i q 1).val = (q ⟨0, by decide⟩).val :=
  dot_S8192x32_S32x32_S8192x32_1_1_0_0_n_n.rhsIdx_val_of_single rfl i q

/-- Entry (p,f) of X · Qwᵀ is the sum over k of X(p,k) · Qw(f,k). -/
theorem proj_apply (p : Fin 8192) (f : Fin 32) :
    proj P0 P1 (ix2 p f) = ∑ k : Fin 32, P0 (ix3 (0 : Fin 1) p k) * P1 (ix2 f k) := by
  unfold proj
  refine (Ideal.matmul_constant_zero_apply dot_S8192x32_S32x32_S8192x32_1_1_0_0_n_n none _ _ (ix2 p f)).trans ?_
  rw [← Equiv.sum_comp (contrEquiv1 dot_S8192x32_S32x32_S8192x32_1_1_0_0_n_n 32 rfl rfl).symm]
  refine Finset.sum_congr rfl fun k _ => ?_
  have hk := contrEquiv1_symm_val dot_S8192x32_S32x32_S8192x32_1_1_0_0_n_n 32 rfl rfl k
  have el : dot_S8192x32_S32x32_S8192x32_1_1_0_0_n_n.lhsIdx (ix2 p f) ((contrEquiv1 dot_S8192x32_S32x32_S8192x32_1_1_0_0_n_n 32 rfl rfl).symm k) = ix2 p k := funext fun a => Fin.ext (by
    match a with
    | ⟨0, _⟩ => exact projL0 _ _
    | ⟨1, _⟩ => exact (projL1 _ _).trans hk)
  have er : dot_S8192x32_S32x32_S8192x32_1_1_0_0_n_n.rhsIdx (ix2 p f) ((contrEquiv1 dot_S8192x32_S32x32_S8192x32_1_1_0_0_n_n 32 rfl rfl).symm k) = ix2 f k := funext fun a => Fin.ext (by
    match a with
    | ⟨0, _⟩ => exact projR0 _ _
    | ⟨1, _⟩ => exact (projR1 _ _).trans hk)
  rw [el, er]
  show shapeCast S8192x32 P0 shapeCasts_S1x8192x32_S8192x32 (ix2 p k) * P1 (ix2 f k) = _
  rw [shapeCast_1ab_ab_apply]

/-- v · σ(v) entry by entry, for any vector v. -/
theorem silu_apply {s : Shape} (v : FVec Ideal s .f32) (i : s.Idx) : mulf v (logistic v) i = v i * Ideal.logistic (v i) := rfl

/-- The activation entry by entry. -/
theorem gated_apply (p : Fin 8192) (f : Fin 32) :
    gated P0 P1 (ix2 p f) = proj P0 P1 (ix2 p f) * Ideal.logistic (proj P0 P1 (ix2 p f)) :=
  silu_apply (proj P0 P1) (ix2 p f)

/-! ## N = max(√(Σ_p G(p,f)²), ε) at a column, and U = G / N at an entry -/

/-- The column's entry of N: the reduction over the row axis is the sum over the 8192 rows. -/
theorem colNorm_apply (u : Fin 1) (f : Fin 32) :
    colNorm P0 P1 (ix2 u f)
      = max (Ideal.sqrt (∑ s : Fin 8192, gated P0 P1 (ix2 s f) * gated P0 P1 (ix2 s f))) (Ideal.ofBits .f32 0x2B8CBCCC#32) := by
  have hs : shapeCast S1x32
        (multiReduction .add [0] S32 (mulf (gated P0 P1) (gated P0 P1)) 0x00000000#32 reduces_S8192x32_S32 (.inl rfl) rfl)
        shapeCasts_S32_S1x32 (ix2 u f)
      = ∑ s : Fin 8192, gated P0 P1 (ix2 s f) * gated P0 P1 (ix2 s f) := by
    refine (shapeCast_a_1a_apply _ shapeCasts_S32_S1x32 u f).trans ?_
    refine (Ideal.multiReduction_add_single _ 0x00000000#32 reduces_S8192x32_S32 (.inl rfl) rfl (ix1 f)).trans ?_
    refine Finset.sum_congr rfl fun s _ => ?_
    have e : reduces_S8192x32_S32.lift (ix1 f) s = ix2 s f := funext fun a => Fin.ext (by
      match a with
      | ⟨0, _⟩ => rfl
      | ⟨1, _⟩ => rfl)
    rw [e]; rfl
  unfold colNorm
  exact congrArg (fun z => max (Ideal.sqrt z) (Ideal.ofBits .f32 0x2B8CBCCC#32)) hs

/-- Entry (p,f) of U: G(p,f) divided by column f's N. -/
theorem normed_apply (p : Fin 8192) (f : Fin 32) :
    normed P0 P1 (ix2 p f) = Ideal.div (gated P0 P1 (ix2 p f)) (colNorm P0 P1 (ix2 (0 : Fin 1) f)) := by
  unfold normed
  show Ideal.div (gated P0 P1 (ix2 p f)) (broadcastTo S8192x32 (colNorm P0 P1) broadcasts_S1x32_S8192x32 (ix2 p f)) = _
  rw [broadcastTo_1b_ab_apply]

/-! ## The two layers at an entry -/

theorem hidL0 (i : S8192x64.Idx) (q : dot_S8192x32_S64x32_S8192x64_1_1_0_0_n_n.contr.Idx) : (dot_S8192x32_S64x32_S8192x64_1_1_0_0_n_n.lhsIdx i q 0).val = (i 0).val := by
  unfold DotDims.lhsIdx
  rw [dif_neg (show ¬(0 : Fin S8192x32.rank) ∈ dot_S8192x32_S64x32_S8192x64_1_1_0_0_n_n.lhsBatch by decide), dif_pos (show (0 : Fin S8192x32.rank) ∈ dot_S8192x32_S64x32_S8192x64_1_1_0_0_n_n.lhsNonContracting by decide)]
  rfl
theorem hidL1 (i : S8192x64.Idx) (q : dot_S8192x32_S64x32_S8192x64_1_1_0_0_n_n.contr.Idx) : (dot_S8192x32_S64x32_S8192x64_1_1_0_0_n_n.lhsIdx i q 1).val = (q ⟨0, by decide⟩).val :=
  dot_S8192x32_S64x32_S8192x64_1_1_0_0_n_n.lhsIdx_val_of_single rfl i q
theorem hidR0 (i : S8192x64.Idx) (q : dot_S8192x32_S64x32_S8192x64_1_1_0_0_n_n.contr.Idx) : (dot_S8192x32_S64x32_S8192x64_1_1_0_0_n_n.rhsIdx i q 0).val = (i 1).val := by
  unfold DotDims.rhsIdx
  rw [dif_neg (show ¬(0 : Fin S64x32.rank) ∈ dot_S8192x32_S64x32_S8192x64_1_1_0_0_n_n.rhsBatch by decide), dif_pos (show (0 : Fin S64x32.rank) ∈ dot_S8192x32_S64x32_S8192x64_1_1_0_0_n_n.rhsNonContracting by decide)]
  rfl
theorem hidR1 (i : S8192x64.Idx) (q : dot_S8192x32_S64x32_S8192x64_1_1_0_0_n_n.contr.Idx) : (dot_S8192x32_S64x32_S8192x64_1_1_0_0_n_n.rhsIdx i q 1).val = (q ⟨0, by decide⟩).val :=
  dot_S8192x32_S64x32_S8192x64_1_1_0_0_n_n.rhsIdx_val_of_single rfl i q

/-- A product l · rᵀ accumulated into zero, at entry (p,f): the sum over the contracted coordinate k of l(p,k) · r(f,k). -/
theorem hid_matmul_apply (l : FVec Ideal S8192x32 .bf16) (r : FVec Ideal S64x32 .bf16) (p : Fin 8192) (f : Fin 64) :
    matmul dot_S8192x32_S64x32_S8192x64_1_1_0_0_n_n none l r (constant (F := Ideal) S8192x64 .f32 0x00000000#32) (ix2 p f) = ∑ k : Fin 32, l (ix2 p k) * r (ix2 f k) := by
  refine (Ideal.matmul_constant_zero_apply dot_S8192x32_S64x32_S8192x64_1_1_0_0_n_n none l r (ix2 p f)).trans ?_
  rw [← Equiv.sum_comp (contrEquiv1 dot_S8192x32_S64x32_S8192x64_1_1_0_0_n_n 32 rfl rfl).symm]
  refine Finset.sum_congr rfl fun k _ => ?_
  have hk := contrEquiv1_symm_val dot_S8192x32_S64x32_S8192x64_1_1_0_0_n_n 32 rfl rfl k
  have el : dot_S8192x32_S64x32_S8192x64_1_1_0_0_n_n.lhsIdx (ix2 p f) ((contrEquiv1 dot_S8192x32_S64x32_S8192x64_1_1_0_0_n_n 32 rfl rfl).symm k) = ix2 p k := funext fun a => Fin.ext (by
    match a with
    | ⟨0, _⟩ => exact hidL0 _ _
    | ⟨1, _⟩ => exact (hidL1 _ _).trans hk)
  have er : dot_S8192x32_S64x32_S8192x64_1_1_0_0_n_n.rhsIdx (ix2 p f) ((contrEquiv1 dot_S8192x32_S64x32_S8192x64_1_1_0_0_n_n 32 rfl rfl).symm k) = ix2 f k := funext fun a => Fin.ext (by
    match a with
    | ⟨0, _⟩ => exact hidR0 _ _
    | ⟨1, _⟩ => exact (hidR1 _ _).trans hk)
  rw [el, er]

theorem outL0 (i : S8192x32.Idx) (q : dot_S8192x64_S32x64_S8192x32_1_1_0_0_n_n.contr.Idx) : (dot_S8192x64_S32x64_S8192x32_1_1_0_0_n_n.lhsIdx i q 0).val = (i 0).val := by
  unfold DotDims.lhsIdx
  rw [dif_neg (show ¬(0 : Fin S8192x64.rank) ∈ dot_S8192x64_S32x64_S8192x32_1_1_0_0_n_n.lhsBatch by decide), dif_pos (show (0 : Fin S8192x64.rank) ∈ dot_S8192x64_S32x64_S8192x32_1_1_0_0_n_n.lhsNonContracting by decide)]
  rfl
theorem outL1 (i : S8192x32.Idx) (q : dot_S8192x64_S32x64_S8192x32_1_1_0_0_n_n.contr.Idx) : (dot_S8192x64_S32x64_S8192x32_1_1_0_0_n_n.lhsIdx i q 1).val = (q ⟨0, by decide⟩).val :=
  dot_S8192x64_S32x64_S8192x32_1_1_0_0_n_n.lhsIdx_val_of_single rfl i q
theorem outR0 (i : S8192x32.Idx) (q : dot_S8192x64_S32x64_S8192x32_1_1_0_0_n_n.contr.Idx) : (dot_S8192x64_S32x64_S8192x32_1_1_0_0_n_n.rhsIdx i q 0).val = (i 1).val := by
  unfold DotDims.rhsIdx
  rw [dif_neg (show ¬(0 : Fin S32x64.rank) ∈ dot_S8192x64_S32x64_S8192x32_1_1_0_0_n_n.rhsBatch by decide), dif_pos (show (0 : Fin S32x64.rank) ∈ dot_S8192x64_S32x64_S8192x32_1_1_0_0_n_n.rhsNonContracting by decide)]
  rfl
theorem outR1 (i : S8192x32.Idx) (q : dot_S8192x64_S32x64_S8192x32_1_1_0_0_n_n.contr.Idx) : (dot_S8192x64_S32x64_S8192x32_1_1_0_0_n_n.rhsIdx i q 1).val = (q ⟨0, by decide⟩).val :=
  dot_S8192x64_S32x64_S8192x32_1_1_0_0_n_n.rhsIdx_val_of_single rfl i q

/-- A product l · rᵀ accumulated into zero, at entry (p,f): the sum over the contracted coordinate k of l(p,k) · r(f,k). -/
theorem out_matmul_apply (l : FVec Ideal S8192x64 .bf16) (r : FVec Ideal S32x64 .bf16) (p : Fin 8192) (f : Fin 32) :
    matmul dot_S8192x64_S32x64_S8192x32_1_1_0_0_n_n none l r (constant (F := Ideal) S8192x32 .f32 0x00000000#32) (ix2 p f) = ∑ k : Fin 64, l (ix2 p k) * r (ix2 f k) := by
  refine (Ideal.matmul_constant_zero_apply dot_S8192x64_S32x64_S8192x32_1_1_0_0_n_n none l r (ix2 p f)).trans ?_
  rw [← Equiv.sum_comp (contrEquiv1 dot_S8192x64_S32x64_S8192x32_1_1_0_0_n_n 64 rfl rfl).symm]
  refine Finset.sum_congr rfl fun k _ => ?_
  have hk := contrEquiv1_symm_val dot_S8192x64_S32x64_S8192x32_1_1_0_0_n_n 64 rfl rfl k
  have el : dot_S8192x64_S32x64_S8192x32_1_1_0_0_n_n.lhsIdx (ix2 p f) ((contrEquiv1 dot_S8192x64_S32x64_S8192x32_1_1_0_0_n_n 64 rfl rfl).symm k) = ix2 p k := funext fun a => Fin.ext (by
    match a with
    | ⟨0, _⟩ => exact outL0 _ _
    | ⟨1, _⟩ => exact (outL1 _ _).trans hk)
  have er : dot_S8192x64_S32x64_S8192x32_1_1_0_0_n_n.rhsIdx (ix2 p f) ((contrEquiv1 dot_S8192x64_S32x64_S8192x32_1_1_0_0_n_n 64 rfl rfl).symm k) = ix2 f k := funext fun a => Fin.ext (by
    match a with
    | ⟨0, _⟩ => exact outR0 _ _
    | ⟨1, _⟩ => exact (outR1 _ _).trans hk)
  rw [el, er]

/-- Entry (p,h) of H = U · W1ᵀ + b1. -/
theorem hiddenPre_apply (p : Fin 8192) (h : Fin 64) :
    hiddenPre P0 P1 P2 P3 (ix2 p h)
      = (∑ k : Fin 32, normed P0 P1 (ix2 p k) * P2 (ix3 (0 : Fin 1) h k)) + P3 (ix3 (0 : Fin 1) (0 : Fin 1) h) := by
  unfold hiddenPre
  refine (addf_apply _ _ _).trans ?_
  congr 1
  · refine (hid_matmul_apply _ _ p h).trans ?_
    refine Finset.sum_congr rfl fun k _ => ?_
    show normed P0 P1 (ix2 p k) * shapeCast S64x32 P2 shapeCasts_S1x64x32_S64x32 (ix2 h k) = _
    rw [shapeCast_1ab_ab_apply]
  · rw [broadcastTo_1b_ab_apply, shapeCast_1ab_ab_apply]

/-- The second activation entry by entry. -/
theorem hidden_apply (p : Fin 8192) (h : Fin 64) :
    hidden P0 P1 P2 P3 (ix2 p h) = hiddenPre P0 P1 P2 P3 (ix2 p h) * Ideal.logistic (hiddenPre P0 P1 P2 P3 (ix2 p h)) :=
  silu_apply (hiddenPre P0 P1 P2 P3) (ix2 p h)

/-- Entry (p,e) of O = S · W2ᵀ + b2. -/
theorem result_apply (p : Fin 8192) (e : Fin 32) :
    result P0 P1 P2 P3 P4 P5 (ix2 p e)
      = (∑ k : Fin 64, hidden P0 P1 P2 P3 (ix2 p k) * P4 (ix3 (0 : Fin 1) e k)) + P5 (ix3 (0 : Fin 1) (0 : Fin 1) e) := by
  unfold result
  refine (addf_apply _ _ _).trans ?_
  congr 1
  · refine (out_matmul_apply _ _ p e).trans ?_
    refine Finset.sum_congr rfl fun k _ => ?_
    show hidden P0 P1 P2 P3 (ix2 p k) * shapeCast S32x64 P4 shapeCasts_S1x32x64_S32x64 (ix2 e k) = _
    rw [shapeCast_1ab_ab_apply]
  · rw [broadcastTo_1b_ab_apply, shapeCast_1ab_ab_apply]

end Cert.KernelIdeal.Mlp

end
-- ==== Proof.Sigmoid.lean ====
/-
  Two scalar facts on the extended reals that join the two spellings of the activation v · σ(v):
  the word of 1.0 denotes 1, and 1 / (1 + e^(-v)) written with negate, exponential, add and
  divide is the logistic function σ(v) at every extended real v, the infinities included
  (σ is DEFINED as that quotient on the extended reals, so nothing about finiteness is used).
-/
import Idealize.ShloMosaic.PureOps.Ideal
import Idealize.ShloMosaic.PureOps.IdealRules
import Idealize.ShloMosaic.PureOps.Ideal.Laws

noncomputable section

open Idealize.ShloMosaic

namespace Cert.Mlp

/-- The f32 word of 1.0 denotes the extended real 1. -/
theorem one_f32 : Ideal.ofBits .f32 0x3F800000#32 = 1 := IdealRules.sign_bit.ideal_onePat .f32

/-- 1 / (1 + e^(-v)), written with the host's negate, exponential, add and divide, is σ(v). -/
theorem host_sigmoid (v : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf v)))
      = FloatOps.logistic v := by
  simp only [Ideal.hostDivf_def, Ideal.addf_def, Ideal.ofBits_def, Ideal.hostUnary_exp_def, Ideal.hostNegf_def,
    Ideal.negf_def, Ideal.logistic_def, one_f32, Ideal.logistic]

end Cert.Mlp

end
-- ==== Proof.Bridge.lean ====
/-
  The kernel's stages against the reference's, entry by entry.

  The reference works on whole arrays with a batch axis: stage by stage it computes, for every
  batch b, what the kernel computes at grid point b from that batch's blocks. So if the six blocks
  a grid point loads are batch t's slices of the arrays (the hypothesis `Slices`), then each kernel
  stage at entry (p,f) is the reference's stage at entry (t,p,f):

      A(p,f) = Σ_k x(t,p,k) · Qw(f,k)                    both sides the same sum, term by term
      G = A · σ(A)                                        σ on one side, 1/(1+e^(-A)) on the other
      N(f) = max(√(Σ_p G(p,f)²), ε)                       the reference's sum starts from the constant 0
      U = G / N,   H = U · W1[t]ᵀ + b1[t],   S = H · σ(H),   O = S · W2[t]ᵀ + b2[t].

  No step reorders a sum or distributes a product, so nothing about finiteness is needed: the only
  laws used are 0 + s = s and the definition of σ on the extended reals.
-/
import proofs.«104471_j46437186404632_2_alg».proof.Proof.Stages
import proofs.«104471_j46437186404632_2_alg».proof.Proof.Sigmoid
import proofs.«104471_j46437186404632_2_alg».proof.Proof.Gen.ReferenceIdeal.Read

noncomputable section

namespace Cert.Mlp

open Idealize.ShloMosaic Idealize.ShloMosaic.ValueIdx Cert.KernelIdeal.Mlp Cert.ReferenceIdeal.Read

variable (X : (⟨Cert.ReferenceIdeal.S64x8192x32, .f32⟩ : BufTy).Contents (Elt Ideal))
  (Q : (⟨Cert.ReferenceIdeal.S32x32, .f32⟩ : BufTy).Contents (Elt Ideal))
  (W1 : (⟨Cert.ReferenceIdeal.S64x64x32, .f32⟩ : BufTy).Contents (Elt Ideal))
  (B1 : (⟨Cert.ReferenceIdeal.S64x64, .f32⟩ : BufTy).Contents (Elt Ideal))
  (W2 : (⟨Cert.ReferenceIdeal.S64x32x64, .f32⟩ : BufTy).Contents (Elt Ideal))
  (B2 : (⟨Cert.ReferenceIdeal.S64x32, .f32⟩ : BufTy).Contents (Elt Ideal))
  (t : Fin 64)
  (P0 : Vec Ideal Cert.KernelIdeal.S1x8192x32 .f32) (P1 : Vec Ideal Cert.KernelIdeal.S32x32 .f32)
  (P2 : Vec Ideal Cert.KernelIdeal.S1x64x32 .f32) (P3 : Vec Ideal Cert.KernelIdeal.S1x1x64 .f32)
  (P4 : Vec Ideal Cert.KernelIdeal.S1x32x64 .f32) (P5 : Vec Ideal Cert.KernelIdeal.S1x1x32 .f32)

/-- The six blocks are batch `t`'s slices of the six arrays (the projection matrix is not batched: its block is the matrix). -/
structure Slices : Prop where
  rows : ∀ (u : Fin 1) (p : Fin 8192) (k : Fin 32), P0 (ix3 u p k) = X (ix3 t p k)
  qw : ∀ (f k : Fin 32), P1 (ix2 f k) = Q (ix2 f k)
  w1 : ∀ (u : Fin 1) (h : Fin 64) (k : Fin 32), P2 (ix3 u h k) = W1 (ix3 t h k)
  b1 : ∀ (u v : Fin 1) (h : Fin 64), P3 (ix3 u v h) = B1 (ix2 t h)
  w2 : ∀ (u : Fin 1) (e : Fin 32) (k : Fin 64), P4 (ix3 u e k) = W2 (ix3 t e k)
  b2 : ∀ (u v : Fin 1) (e : Fin 32), P5 (ix3 u v e) = B2 (ix2 t e)

variable {X Q W1 B1 W2 B2 t P0 P1 P2 P3 P4 P5}
variable (hs : Slices X Q W1 B1 W2 B2 t P0 P1 P2 P3 P4 P5)
include hs

/-- A: the projection. -/
theorem proj_ref (p : Fin 8192) (f : Fin 32) :
    proj P0 P1 (ix2 p f) = val_main_v0 (F := Ideal) X Q (ix3 t p f) := by
  rw [proj_apply, val_main_v0_apply]
  refine Finset.sum_congr rfl fun k _ => ?_
  have el : lidx_main_v0 (ix3 t p f) k = ix3 t p k := funext fun a => Fin.ext (by
      match a with
      | ⟨0, _⟩ => rfl
      | ⟨1, _⟩ => rfl
      | ⟨2, _⟩ => rfl)
  have er : ridx_main_v0 (ix3 t p f) k = ix2 f k := funext fun a => Fin.ext (by
      match a with
      | ⟨0, _⟩ => rfl
      | ⟨1, _⟩ => rfl)
  rw [hs.rows, hs.qw, el, er]

/-- G: the activation; the reference spells σ(A) as 1 / (1 + e^(-A)). -/
theorem gated_ref (p : Fin 8192) (f : Fin 32) :
    gated P0 P1 (ix2 p f) = val_main_v7 (F := Ideal) X Q (ix3 t p f) := by
  rw [gated_apply, proj_ref hs p f, val_main_v7_apply, val_main_v6_apply, val_main_v5_apply, val_main_cst_0_apply,
    val_main_v4_apply, val_main_v3_apply, val_main_cst_apply, val_main_v2_apply, val_main_v1_apply, host_sigmoid]
  rfl

/-- N: the column norm floored at ε; the reference's sum starts from the constant 0. -/
theorem colNorm_ref (u : Fin 1) (f : Fin 32) :
    colNorm P0 P1 (ix2 u f) = val_main_v13 (F := Ideal) X Q (ix3 t (0 : Fin 1) f) := by
  have hsum : ∀ s : Fin 8192, gated P0 P1 (ix2 s f) * gated P0 P1 (ix2 s f)
      = val_main_v8 (F := Ideal) X Q (idx_main_v9 (idx_main_v10 (ix3 t (0 : Fin 1) f)) s) := by
    intro s
    have e : idx_main_v9 (idx_main_v10 (ix3 t (0 : Fin 1) f)) s = ix3 t s f := funext fun a => Fin.ext (by
      match a with
      | ⟨0, _⟩ => rfl
      | ⟨1, _⟩ => rfl
      | ⟨2, _⟩ => rfl)
    rw [e, val_main_v8_apply, ← gated_ref hs s f]
    rfl
  rw [colNorm_apply, val_main_v13_apply, val_main_v12_apply, val_main_cst_2_apply, val_main_v11_apply, val_main_v10_apply,
    val_main_v9_apply, val_main_cst_1_apply, Finset.sum_congr rfl (fun s _ => hsum s)]
  show max (Ideal.sqrt _) _ = max (Ideal.sqrt (Ideal.ofBits .f32 0x00000000#32 + _)) _
  rw [Ideal.ofBits_zero_f32, zero_add]
  rfl

/-- U: each column of G divided by its N. -/
theorem normed_ref (p : Fin 8192) (f : Fin 32) :
    normed P0 P1 (ix2 p f) = val_main_v15 (F := Ideal) X Q (ix3 t p f) := by
  have e : idx_main_v14 (ix3 t p f) = ix3 t (0 : Fin 1) f := funext fun a => Fin.ext (by
      match a with
      | ⟨0, _⟩ => rfl
      | ⟨1, _⟩ => rfl
      | ⟨2, _⟩ => rfl)
  rw [normed_apply, gated_ref hs p f, colNorm_ref hs 0 f, val_main_v15_apply, val_main_v14_apply, e]
  rfl

/-- H: the first layer before its activation. -/
theorem hiddenPre_ref (p : Fin 8192) (h : Fin 64) :
    hiddenPre P0 P1 P2 P3 (ix2 p h) = val_main_v19 (F := Ideal) X Q W1 B1 (ix3 t p h) := by
  rw [hiddenPre_apply, val_main_v19_apply, val_main_v16_apply, val_main_v18_apply, val_main_v17_apply]
  show _ + _ = _ + _
  refine congrArg₂ (· + ·) ?_ ?_
  · refine Finset.sum_congr rfl fun k _ => ?_
    have el : lidx_main_v16 (ix3 t p h) k = ix3 t p k := funext fun a => Fin.ext (by
      match a with
      | ⟨0, _⟩ => rfl
      | ⟨1, _⟩ => rfl
      | ⟨2, _⟩ => rfl)
    have er : ridx_main_v16 (ix3 t p h) k = ix3 t h k := funext fun a => Fin.ext (by
      match a with
      | ⟨0, _⟩ => rfl
      | ⟨1, _⟩ => rfl
      | ⟨2, _⟩ => rfl)
    rw [el, er, normed_ref hs p k, hs.w1]
  · have e : idx_main_v17 (idx_main_v18 (ix3 t p h)) = ix2 t h := funext fun a => Fin.ext (by
      match a with
      | ⟨0, _⟩ => rfl
      | ⟨1, _⟩ => rfl)
    rw [hs.b1, e]

/-- S: the second activation. -/
theorem hidden_ref (p : Fin 8192) (h : Fin 64) :
    hidden P0 P1 P2 P3 (ix2 p h) = val_main_v26 (F := Ideal) X Q W1 B1 (ix3 t p h) := by
  rw [hidden_apply, hiddenPre_ref hs p h, val_main_v26_apply, val_main_v25_apply, val_main_v24_apply, val_main_cst_4_apply,
    val_main_v23_apply, val_main_v22_apply, val_main_cst_3_apply, val_main_v21_apply, val_main_v20_apply, host_sigmoid]
  rfl

/-- O: the second layer, the result. -/
theorem result_ref (p : Fin 8192) (e : Fin 32) :
    result P0 P1 P2 P3 P4 P5 (ix2 p e) = val_main_v30 (F := Ideal) X Q W1 B1 W2 B2 (ix3 t p e) := by
  rw [result_apply, val_main_v30_apply, val_main_v27_apply, val_main_v29_apply, val_main_v28_apply]
  show _ + _ = _ + _
  refine congrArg₂ (· + ·) ?_ ?_
  · refine Finset.sum_congr rfl fun k _ => ?_
    have el : lidx_main_v27 (ix3 t p e) k = ix3 t p k := funext fun a => Fin.ext (by
      match a with
      | ⟨0, _⟩ => rfl
      | ⟨1, _⟩ => rfl
      | ⟨2, _⟩ => rfl)
    have er : ridx_main_v27 (ix3 t p e) k = ix3 t e k := funext fun a => Fin.ext (by
      match a with
      | ⟨0, _⟩ => rfl
      | ⟨1, _⟩ => rfl
      | ⟨2, _⟩ => rfl)
    rw [el, er, hidden_ref hs p k, hs.w2]
  · have e' : idx_main_v28 (idx_main_v29 (ix3 t p e)) = ix2 t e := funext fun a => Fin.ext (by
      match a with
      | ⟨0, _⟩ => rfl
      | ⟨1, _⟩ => rfl)
    rw [hs.b2, e']

/-- What a grid point stores, at block entry (u,p,e): the reference's result at (t,p,e). The store adds a leading
    unit axis to O, which reads back as O(p,e). -/
theorem stored_ref (u : Fin 1) (p : Fin 8192) (e : Fin 32) :
    Cert.KernelIdeal.Gen.k0_pay1 (Cert.KernelIdeal.Gen.k0_pay2 (F := Ideal) P0 P1 P2 P3 P4 P5) (ix3 u p e)
      = val_main_v30 (F := Ideal) X Q W1 B1 W2 B2 (ix3 t p e) := by
  rw [pay_eq P0 P1 P2 P3 P4 P5]
  show shapeCast Cert.KernelIdeal.S1x8192x32 (result P0 P1 P2 P3 P4 P5) Cert.KernelIdeal.Gen.shapeCasts_S8192x32_S1x8192x32 (ix3 u p e) = _
  rw [shapeCast_ab_1ab_apply, result_ref hs p e]

end Cert.Mlp

end
-- ==== Proof.Whole.lean ====
/-
  From the grid points' blocks to the whole result array.

  Grid point t (one per batch, 64 of them) loads block t of every batched array — rows t of x, W1, W2,
  and of the two biases (which the host first gives a unit middle axis) — and the whole projection
  matrix, and writes back block t of the result. So the six blocks are batch t's slices, what the
  point writes back is the reference's result on batch t (the stage-by-stage comparison), the 64
  written blocks tile the result array (index (b,p,e) lies in block b), and hence the array after the
  run IS the reference's composed function of the argument arrays.
-/
import proofs.«104471_j46437186404632_2_alg».proof.Proof.Gen.KernelIdeal.Value
import proofs.«104471_j46437186404632_2_alg».proof.Proof.Bridge
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices, decided over the 64 grid points: every batched window is at block (t,0,0), the projection
    matrix's window at block (0,0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-! ## Each window's block at a point is the batch's slice -/

/-- Block t of x is batch t's rows. -/
theorem rows_blk (c : Dev nD) (t : Fin cfg0.N) (u : Fin 1) (a : Fin 8192) (b : Fin 32) :
    (iblk m c 0 t : Vec Ideal S1x8192x32 .f32) (ix3 u a b)
      = (m ((c : Thread nD τ).loc main_arg0) : S64x8192x32.Idx → EReal) (ix3 (t.cast N_0) a b) := by
  have hi := idx_facts t
  have hu : u.val = 0 := by omega
  unfold iblk
  rw [View.read_apply]
  show V m c main_arg0 _ = _
  rw [V_main_arg0]
  refine congrArg _ (funext fun d => Fin.ext ?_)
  match d with
  | ⟨0, _⟩ => show win0_0.index t (0 : Fin 3) * 1 + 1 * u.val = t.val; omega
  | ⟨1, _⟩ => show win0_0.index t (1 : Fin 3) * 8192 + 1 * a.val = a.val; omega
  | ⟨2, _⟩ => show win0_0.index t (2 : Fin 3) * 32 + 1 * b.val = b.val; omega

/-- The projection matrix's block is the matrix. -/
theorem qw_blk (c : Dev nD) (t : Fin cfg0.N) (f k : Fin 32) :
    (iblk m c 1 t : Vec Ideal S32x32 .f32) (ix2 f k) = (m ((c : Thread nD τ).loc main_arg1) : S32x32.Idx → EReal) (ix2 f k) := by
  have hi := idx_facts t
  unfold iblk
  rw [View.read_apply]
  show V m c main_arg1 _ = _
  rw [V_main_arg1]
  refine congrArg _ (funext fun d => Fin.ext ?_)
  match d with
  | ⟨0, _⟩ => show win0_1.index t (0 : Fin 2) * 32 + 1 * f.val = f.val; omega
  | ⟨1, _⟩ => show win0_1.index t (1 : Fin 2) * 32 + 1 * k.val = k.val; omega

/-- Block t of W1 is batch t's first-layer weights. -/
theorem w1_blk (c : Dev nD) (t : Fin cfg0.N) (u : Fin 1) (a : Fin 64) (b : Fin 32) :
    (iblk m c 2 t : Vec Ideal S1x64x32 .f32) (ix3 u a b)
      = (m ((c : Thread nD τ).loc main_arg2) : S64x64x32.Idx → EReal) (ix3 (t.cast N_0) a b) := by
  have hi := idx_facts t
  have hu : u.val = 0 := by omega
  unfold iblk
  rw [View.read_apply]
  show V m c main_arg2 _ = _
  rw [V_main_arg2]
  refine congrArg _ (funext fun d => Fin.ext ?_)
  match d with
  | ⟨0, _⟩ => show win0_2.index t (0 : Fin 3) * 1 + 1 * u.val = t.val; omega
  | ⟨1, _⟩ => show win0_2.index t (1 : Fin 3) * 64 + 1 * a.val = a.val; omega
  | ⟨2, _⟩ => show win0_2.index t (2 : Fin 3) * 32 + 1 * b.val = b.val; omega

/-- Block t of W2 is batch t's second-layer weights. -/
theorem w2_blk (c : Dev nD) (t : Fin cfg0.N) (u : Fin 1) (a : Fin 32) (b : Fin 64) :
    (iblk m c 4 t : Vec Ideal S1x32x64 .f32) (ix3 u a b)
      = (m ((c : Thread nD τ).loc main_arg4) : S64x32x64.Idx → EReal) (ix3 (t.cast N_0) a b) := by
  have hi := idx_facts t
  have hu : u.val = 0 := by omega
  unfold iblk
  rw [View.read_apply]
  show V m c main_arg4 _ = _
  rw [V_main_arg4]
  refine congrArg _ (funext fun d => Fin.ext ?_)
  match d with
  | ⟨0, _⟩ => show win0_4.index t (0 : Fin 3) * 1 + 1 * u.val = t.val; omega
  | ⟨1, _⟩ => show win0_4.index t (1 : Fin 3) * 32 + 1 * a.val = a.val; omega
  | ⟨2, _⟩ => show win0_4.index t (2 : Fin 3) * 64 + 1 * b.val = b.val; omega

/-- The array this window stages is the bias with a unit axis inserted between its two axes. -/
theorem V_main_v0 (c : Dev nD) :
    (V m c main_v0 : S64x1x64.Idx → EReal) = shapeCast S64x1x64 (m ((c : Thread nD τ).loc main_arg3) : S64x64.Idx → EReal) shapeCasts_S64x64_S64x1x64 := by
  dsimp only [V, hostOps0]
  after_results
  rfl

/-- Block t of the reshaped first bias is batch t's bias row. -/
theorem b1_blk (c : Dev nD) (t : Fin cfg0.N) (u v : Fin 1) (h : Fin 64) :
    (iblk m c 3 t : Vec Ideal S1x1x64 .f32) (ix3 u v h)
      = (m ((c : Thread nD τ).loc main_arg3) : S64x64.Idx → EReal) (ix2 (t.cast N_0) h) := by
  have hi := idx_facts t
  have hu : u.val = 0 := by omega
  have hv : v.val = 0 := by omega
  unfold iblk
  rw [View.read_apply]
  show V m c main_v0 _ = _
  rw [V_main_v0]
  refine shapeCast_apply _ _ _ (ix2 (t.cast N_0) h) ?_
  rw [Shape.rowMajor_val_two, Shape.rowMajor_val_three]
  show t.val * 64 + h.val = ((win0_3.index t (0 : Fin 3) * 1 + 1 * u.val) * 1 + (win0_3.index t (1 : Fin 3) * 1 + 1 * v.val)) * 64 + (win0_3.index t (2 : Fin 3) * 64 + 1 * h.val)
  omega

/-- The array this window stages is the bias with a unit axis inserted between its two axes. -/
theorem V_main_v1 (c : Dev nD) :
    (V m c main_v1 : S64x1x32.Idx → EReal) = shapeCast S64x1x32 (m ((c : Thread nD τ).loc main_arg5) : S64x32.Idx → EReal) shapeCasts_S64x32_S64x1x32 := by
  dsimp only [V, hostOps0]
  after_results
  rfl

/-- Block t of the reshaped second bias is batch t's bias row. -/
theorem b2_blk (c : Dev nD) (t : Fin cfg0.N) (u v : Fin 1) (h : Fin 32) :
    (iblk m c 5 t : Vec Ideal S1x1x32 .f32) (ix3 u v h)
      = (m ((c : Thread nD τ).loc main_arg5) : S64x32.Idx → EReal) (ix2 (t.cast N_0) h) := by
  have hi := idx_facts t
  have hu : u.val = 0 := by omega
  have hv : v.val = 0 := by omega
  unfold iblk
  rw [View.read_apply]
  show V m c main_v1 _ = _
  rw [V_main_v1]
  refine shapeCast_apply _ _ _ (ix2 (t.cast N_0) h) ?_
  rw [Shape.rowMajor_val_two, Shape.rowMajor_val_three]
  show t.val * 32 + h.val = ((win0_5.index t (0 : Fin 3) * 1 + 1 * u.val) * 1 + (win0_5.index t (1 : Fin 3) * 1 + 1 * v.val)) * 32 + (win0_5.index t (2 : Fin 3) * 32 + 1 * h.val)
  omega

/-- The six blocks at point t are batch t's slices of the six argument arrays. -/
theorem slices (c : Dev nD) (t : Fin cfg0.N) :
    Cert.Mlp.Slices (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (t.cast N_0)
      (iblk m c 0 t) (iblk m c 1 t) (iblk m c 2 t) (iblk m c 3 t) (iblk m c 4 t) (iblk m c 5 t) :=
  ⟨rows_blk m c t, qw_blk m c t, w1_blk m c t, b1_blk m c t, w2_blk m c t, b2_blk m c t⟩

/-! ## The whole array -/

/-- The result array as ONE function of the argument arrays: the reference's composed stages. -/
abbrev whole (c : Dev nD) : S64x8192x32.Idx → EReal :=
  Cert.ReferenceIdeal.Read.val_main_v30 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- What point t writes back is block t of that function. -/
theorem flushed_eq (c : Dev nD) (t : Fin cfg0.N) :
    (dats m 0 c).flushed 6 t = ((cfg0.win 6).blk t).view.read (Elt Ideal) (whole m c) := by
  have hi := idx_facts t
  show (cfg0.win 6).cut (grid0.coords t) ((dats m 0 c).after 6 t) = _
  rw [after0_6]
  unfold out0_6
  rw [View.canon_unit_zero zero3]
  simp only [View.ld_unit_zero (S := S1x8192x32) zero3, View.ld_unit_zero (S := S32x32) zero2,
    View.ld_unit_zero (S := S1x64x32) zero3, View.ld_unit_zero (S := S1x1x64) zero3,
    View.ld_unit_zero (S := S1x32x64) zero3, View.ld_unit_zero (S := S1x1x32) zero3]
  funext y
  obtain ⟨u, p, e, rfl⟩ : ∃ (u : Fin 1) (p : Fin 8192) (e : Fin 32), y = ix3 u p e := ⟨y 0, y 1, y 2, eq_ix3 y⟩
  have hu : u.val = 0 := by omega
  refine (Cert.Mlp.stored_ref (slices m c t) u p e).trans ?_
  rw [View.read_apply]
  refine congrArg _ (funext fun d => Fin.ext ?_)
  match d with
  | ⟨0, _⟩ => show t.val = win0_6.index t (0 : Fin 3) * 1 + 1 * u.val; omega
  | ⟨1, _⟩ => show p.val = win0_6.index t (1 : Fin 3) * 8192 + 1 * p.val; omega
  | ⟨2, _⟩ => show e.val = win0_6.index t (2 : Fin 3) * 32 + 1 * e.val; omega

/-- An index of the array is in point t's block iff each coordinate is in the block's range on its axis. -/
theorem mem_blk (t : Fin cfg0.N) (i : S64x8192x32.Idx) :
    i ∈ ((cfg0.win 6).blk t).view.set ↔ ∀ a : Fin 3, win0_6.index t a * S1x8192x32.size a ≤ (i a).val ∧ (i a).val < win0_6.index t a * S1x8192x32.size a + S1x8192x32.size a := by
  show i ∈ ((View.whole main_v2).slice (win0_6.rect t)).set ↔ _
  rw [View.set_slice_whole, Rect.mem_set_unit]
  exact Iff.rfl

/-- The written blocks tile the array: index (b,p,e) is in the block of the point with t = b. -/
theorem cover (i : S64x8192x32.Idx) :
    ∃ t : Fin cfg0.N, (cfg0.win 6).flush t = true ∧ i ∈ ((cfg0.win 6).blk t).view.set := by
  have hi0 : (i 0).val < 64 := (i 0).isLt
  have hi1 : (i 1).val < 8192 := (i 1).isLt
  have hi2 : (i 2).val < 32 := (i 2).isLt
  have hN : grid0.N = 64 := N_0
  let t : Fin cfg0.N := ⟨(i 0).val, by show (i 0).val < grid0.N; omega⟩
  have ht : t.val = (i 0).val := rfl
  have hi := idx_facts t
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 8192 ≤ (i 1).val ∧ (i 1).val < win0_6.index t (1 : Fin 3) * 8192 + 8192; omega
  | ⟨2, _⟩ => show win0_6.index t (2 : Fin 3) * 32 ≤ (i 2).val ∧ (i 2).val < win0_6.index t (2 : Fin 3) * 32 + 32; omega

/-- The result array after the run is the reference's function of the argument arrays. -/
theorem final (c : Dev nD) : (dats m 0 c).arrAt 6 cfg0.N = whole m c :=
  (dats m 0 c).arrAt_eq_of_cover 6 (whole m c) (fun t _ => flushed_eq m c t) cover

/-- The kernel's run, read: the result array at that function, the arguments unchanged. -/
theorem run : θ_run defs (onTc (τ := τ) (main (F := Ideal))) ⟨m, fun _ => 0, ρ⟩ fun r => ∀ c : Dev nD,
      r.2.mem ((c : Thread nD τ).loc main_v2) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.lean ====
/-
  A per-batch two-layer network, computed one batch per grid point, against its whole-array reference: equal on the extended reals.

  For each of 64 batches b, with rows X = x[b] (8192 × 32):
      A = X · Qwᵀ,  G = A · σ(A),  N(f) = max(√(Σ_p G(p,f)²), ε),  U = G / N,
      H = U · W1[b]ᵀ + b1[b],  S = H · σ(H),  O = S · W2[b]ᵀ + b2[b].
  The kernel runs one grid point per batch on that batch's blocks; the reference runs the same stages
  on the whole arrays with a batch axis. Where floats are exact extended reals the two are the same
  function of the arguments, stage by stage and entry by entry: the products are the same sums in the
  same order, changes of float format are the identity, both sides floor the norm at the same ε, and
  σ(v) is by definition 1 / (1 + e^(-v)), which is how the reference spells it. No step needs the
  inputs to be finite, so the precondition is never opened.

  The three frames come from the generated frame and run modules (the reference's is its run with the
  result dropped); the idealized kernel is the kernel's own text, so there is nothing to preserve; and
  for the value claim both runs end with the result array at ONE function of the arguments, the
  reference's composed stages (Whole.lean, over Stages.lean and Bridge.lean).
-/
import proofs.«104471_j46437186404632_2_alg».proof.Defs
import proofs.«104471_j46437186404632_2_alg».proof.Proof.Gen.Kernel
import proofs.«104471_j46437186404632_2_alg».proof.Proof.Gen.Kernel.Skeleton
import proofs.«104471_j46437186404632_2_alg».proof.Proof.Gen.Kernel.Launch
import proofs.«104471_j46437186404632_2_alg».proof.Proof.Gen.Kernel.Points
import proofs.«104471_j46437186404632_2_alg».proof.Proof.Gen.Kernel.Frame
import proofs.«104471_j46437186404632_2_alg».proof.Proof.Gen.KernelIdeal
import proofs.«104471_j46437186404632_2_alg».proof.Proof.Gen.KernelIdeal.Skeleton
import proofs.«104471_j46437186404632_2_alg».proof.Proof.Gen.KernelIdeal.Launch
import proofs.«104471_j46437186404632_2_alg».proof.Proof.Gen.KernelIdeal.Points
import proofs.«104471_j46437186404632_2_alg».proof.Proof.Gen.KernelIdeal.Frame
import proofs.«104471_j46437186404632_2_alg».proof.Proof.Gen.ReferenceIdeal
import proofs.«104471_j46437186404632_2_alg».proof.Proof.Gen.Pre_finite_inputs
import proofs.«104471_j46437186404632_2_alg».proof.Proof.Gen.KernelIdeal.Value
import proofs.«104471_j46437186404632_2_alg».proof.Proof.Gen.ReferenceIdeal.Run
import proofs.«104471_j46437186404632_2_alg».proof.Proof.Gen.ReferenceIdeal.Read
import proofs.«104471_j46437186404632_2_alg».proof.Proof.Whole
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the result array at the reference's composed function of the arguments (which agree). -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
